-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S16384x4096 : Shape := ⟨2, ![16384, 4096]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x4096 : S_.BroadcastsInDim S16384x4096 (![] : Fin 0 → Fin S16384x4096.rank)
  reducesTo_S16384x4096_S_d0_1 : S16384x4096.ReducesTo [0, 1] S_

variable [Facts]

def fn {F : FTy → Type} [FloatOps F] (main_arg0 : FVec F S16384 .f32) (main_arg1 : FVec F S16384x4096 .f32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384 : Shape := ⟨1, ![16384]⟩
abbrev S16384x4096 : Shape := ⟨2, ![16384, 4096]⟩
abbrev S16384x1 : Shape := ⟨2, ![16384, 1]⟩
abbrev S512x1 : Shape := ⟨2, ![512, 1]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S16384, .f32⟩
  | .hbm, ⟨1, _⟩ => ⟨S16384x4096, .f32⟩
  | .hbm, ⟨2, _⟩ => ⟨S16384x1, .f32⟩
  | .hbm, ⟨3, _⟩ => ⟨S16384x4096, .f32⟩
  | .local _ .vmem, ⟨0, _⟩ => ⟨S512x1, .f32⟩
  | .local _ .vmem, ⟨1, _⟩ => ⟨S512x1, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384_S16384x1 : S16384.ShapeCasts S16384x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  broadcasts_S512x1_S512x4096 : S512x1.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S16384x1.size a
  hwx0_0 : ∀ i : grid0.Coords, EltTy.bits .f32 = 32 ∨ (Rect.block (s := S16384x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_call0_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384 : Shape := ⟨1, ![16384]⟩
abbrev S16384x4096 : Shape := ⟨2, ![16384, 4096]⟩
abbrev S16384x1 : Shape := ⟨2, ![16384, 1]⟩

abbrev nBuf : Space → Nat
  | .hbm => 5
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384x4096, .f32⟩
  | .hbm, ⟨2, _⟩ => ⟨S16384x1, .f32⟩
  | .hbm, ⟨3, _⟩ => ⟨S16384x4096, .f32⟩
  | .hbm, ⟨4, _⟩ => ⟨S16384x4096, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)

variable [Facts₀]

class Facts : Prop extends Facts₀ where

variable [Facts]
-- ==== Proof.RowScale.lean ====
/-
  The function both programs compute: scaling row `r` of a 16384 × 4096 matrix `b` by the `r`-th entry of a
  vector `a` of length 16384, that is the product `diag(a) · b`, entry by entry

      (rowScale a b) (r, k) = a r * b (r, k).

  It is stated for any interpretation `F` of the float operations (one multiplication per entry, the vector's
  entry on the left), over the literal shapes, and imports neither program.
-/
import Idealize.ShloMosaic.PureOps.Ideal
import Idealize.ShloMosaic.Lib.ValueIdx

noncomputable section

namespace Cert.RowScale

open Idealize.ShloMosaic

variable {F : FTy → Type} [FloatOps F]

/-- The row of a matrix index, as an index of the vector: `(r, k) ↦ r`. -/
abbrev rowOf (i : (⟨2, ![16384, 4096]⟩ : Shape).Idx) : (⟨1, ![16384]⟩ : Shape).Idx :=
  fun a => match a with | ⟨0, _⟩ => ⟨(i 0).val, (i 0).isLt⟩

/-- `diag(a) · b`: entry `(r, k)` is `a r * b (r, k)`. -/
def rowScale (a : (⟨1, ![16384]⟩ : Shape).Idx → Elt F .f32) (b : (⟨2, ![16384, 4096]⟩ : Shape).Idx → Elt F .f32) :
    (⟨2, ![16384, 4096]⟩ : Shape).Idx → Elt F .f32 :=
  fun i => FloatOps.mulf (a (rowOf i)) (b i)

theorem rowScale_apply (a : (⟨1, ![16384]⟩ : Shape).Idx → Elt F .f32) (b : (⟨2, ![16384, 4096]⟩ : Shape).Idx → Elt F .f32)
    (i : (⟨2, ![16384, 4096]⟩ : Shape).Idx) : rowScale a b i = FloatOps.mulf (a (rowOf i)) (b i) := rfl

end Cert.RowScale

end
-- ==== Proof.RefRowScale.lean ====
/-
  The reference's result is `rowScale` of its arguments.

  The reference broadcasts the vector `a` first to a column (entry `(r, 0)` is `a r`), then along the rows (entry
  `(r, k)` is the column's entry `(r, 0)`), and multiplies by `b` entry by entry. Reading the three stages at an index
  `(r, k)`, the broadcast value is `a r`, so the product is `a r * b (r, k)`.
-/
import proofs.«136523_j84172769067597_2_alg».proof.Proof.Gen.ReferenceIdeal.Read
import proofs.«136523_j84172769067597_2_alg».proof.Proof.RowScale

noncomputable section

namespace Cert.ReferenceIdeal.RefValue

open Cert.ReferenceIdeal Cert.ReferenceIdeal.Read Cert.RowScale Idealize.ShloMosaic

variable {F : FTy → Type} [FloatOps F]

/-- Through the two broadcasts, entry `(r, k)` reads the vector at `r`. -/
theorem row_through_broadcasts (i : S16384x4096.Idx) : idx_main_v0 (idx_main_v1 i) = rowOf i :=
  funext fun a => match a with | ⟨0, _⟩ => rfl

/-- The reference's last stage, as a function of its two arguments, is `rowScale`. -/
theorem result_eq (a : (⟨S16384, .f32⟩ : BufTy).Contents (Elt F)) (b : (⟨S16384x4096, .f32⟩ : BufTy).Contents (Elt F)) :
    val_main_v2 (F := F) a b = rowScale a b := by
  funext i
  rw [val_main_v2_apply, val_main_v1_apply, val_main_v0_apply, row_through_broadcasts]
  rfl

end Cert.ReferenceIdeal.RefValue

end
-- ==== Proof.KernelRowScale.lean ====
/-
  The kernel's result array is `rowScale` of its arguments.

  The region finds a column: the vector `a` re-laid by the host as a 16384 × 1 array, whose entry `(r, 0)` is `a r`.
  The grid has 32 points; point `t` takes rows `512 t … 512 t + 511` of the column, of `b` and of the result (all three
  windows sit at block row `t`, block column `0`). At a point the body multiplies entry `(p, q)` of `b`'s block by
  entry `(p, 0)` of the column's block, so what the point writes back is rows `512 t … 512 t + 511` of `rowScale a b`.
  Every row `r` lies in the block of point `r / 512`, so the blocks fill the array and it ends as `rowScale a b`.
-/
import proofs.«136523_j84172769067597_2_alg».proof.Proof.Gen.KernelIdeal.Value
import proofs.«136523_j84172769067597_2_alg».proof.Proof.RowScale
import Idealize.ShloMosaic.Lib.Pipeline.Value
import Idealize.ShloMosaic.Lib.StableHlo.Run

noncomputable section

namespace Cert.KernelIdeal.RowBlocks

open Cert.KernelIdeal Cert.KernelIdeal.Gen Cert.KernelIdeal.Value Cert.RowScale
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The column the region finds -/

/-- The column is the vector `a` with its entries kept in order, at shape 16384 × 1. -/
theorem column_eq (c : Dev nD) :
    (V m c main_call0_v0 : S16384x1.Idx → Elt F .f32)
      = shapeCast S16384x1 (m ((c : Thread nD τ).loc main_arg0)) shapeCasts_S16384_S16384x1 := by
  dsimp only [V, hostOps0]; after_results; rfl

/-- Entry `(r, 0)` of the column is `a r`: position `r * 1 + 0` of the column is position `r` of the vector. -/
theorem column_apply (c : Dev nD) (j : S16384x1.Idx) (k : S16384.Idx) (hk : (k 0).val = (j 0).val) :
    V m c main_call0_v0 j = m ((c : Thread nD τ).loc main_arg0) k := by
  rw [column_eq]
  refine shapeCast_apply _ _ j k ?_
  rw [Shape.rowMajor_val_one, Shape.rowMajor_val_two]
  have h1 : (j 1).val < 1 := (j 1).isLt
  show (k 0).val = (j 0).val * 1 + (j 1).val
  omega

/-! ## One block -/

theorem zero_offset : (![0, 0] : Fin 2 → Nat) = fun _ => 0 := funext fun a => by fin_cases a <;> rfl

/-- What the body leaves in the result's block, from the column's block `P0` and `b`'s block `P1`: entry `(p, q)` is
    `P0 (p, 0) * P1 (p, q)`. -/
theorem block_apply (P0 : Vec F S512x1 .f32) (P1 : Vec F S512x4096 .f32) (y : S512x4096.Idx) :
    out0_2 P0 P1 y = FloatOps.mulf (P0 (ix2_0 y)) (P1 y) := by
  unfold out0_2
  simp only [View.ld_unit_zero (S := S512x1) zero_offset, View.ld_unit_zero (S := S512x4096) zero_offset]
  refine (canon2_eq P0 P1 y).trans ?_
  show FloatOps.mulf (P0 (ix2_0 y)) (P1 (ix2_1 y)) = FloatOps.mulf (P0 (ix2_0 y)) (P1 y)
  rw [show ix2_1 y = y from funext fun a => match a with | ⟨0, _⟩ => rfl | ⟨1, _⟩ => rfl]

/-! ## The blocks' places -/

/-- Over the 32 points: the three windows sit at the same block row, in block column `0`. -/
theorem same_block_row : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = win0_2.index t (1 : Fin 2)
    ∧ win0_2.index t (1 : Fin 2) = 0
    ∧ win0_2.index t (0 : Fin 2) ≤ 31 :=
  (by decide +kernel : ∀ t : Fin grid0.N, _)

/-- Every block row `0 … 31` is some point's. -/
theorem block_row_onto : ∀ q : Fin 32, ∃ t : Fin cfg0.N, win0_2.index t = ![q.val, 0] :=
  (by decide +kernel : ∀ q : Fin 32, ∃ t : Fin grid0.N, win0_2.index t = ![q.val, 0])

/-- What point `t` writes back is its block of `rowScale a b`. -/
theorem flushed_eq (c : Dev nD) (t : Fin cfg0.N) :
    (dats m 0 c).flushed 2 t = ((cfg0.win 2).blk t).view.read (Elt F)
      (rowScale (m ((c : Thread nD τ).loc main_arg0)) (m ((c : Thread nD τ).loc main_arg1))) := by
  rw [flushed2]
  obtain ⟨e0, e1, e2, e3, e4, e5⟩ := same_block_row t
  funext j
  show out0_2 (iblk m c 0 t) (iblk m c 1 t) j = _
  refine (block_apply (iblk m c 0 t) (iblk m c 1 t) j).trans ?_
  show FloatOps.mulf (V m c main_call0_v0 (((cfg0.win 0).blk t).view.emb (ix2_0 j))) (V m c main_arg1 (((cfg0.win 1).blk t).view.emb j))
      = FloatOps.mulf (m ((c : Thread nD τ).loc main_arg0) (rowOf (((cfg0.win 2).blk t).view.emb j)))
          (m ((c : Thread nD τ).loc main_arg1) (((cfg0.win 2).blk t).view.emb j))
  have hj0 : (j 0).val < 512 := (j 0).isLt
  have hj1 : (j 1).val < 4096 := (j 1).isLt
  refine congrArg₂ _ ?_ ?_
  · refine column_apply m c _ _ ?_
    show win0_2.index t (0 : Fin 2) * 512 + 1 * (j 0).val = win0_0.index t (0 : Fin 2) * 512 + 1 * (j 0).val
    omega
  · rw [V_main_arg1]
    refine congrArg _ ?_
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 4096 + 1 * (j 1).val = win0_2.index t (1 : Fin 2) * 4096 + 1 * (j 1).val; omega

/-! ## The blocks fill the array -/

/-- An index is in point `t`'s block iff each coordinate is in the block's range on its axis. -/
theorem mem_block (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- Row `r` is in the block of the point at block row `r / 512`. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := block_row_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 4096 ≤ (i 1).val ∧ (i 1).val < win0_2.index t (1 : Fin 2) * 4096 + 4096; omega

/-- The result array after the run is `rowScale a b`. -/
theorem final (c : Dev nD) : (dats m 0 c).arrAt 2 cfg0.N
    = rowScale (m ((c : Thread nD τ).loc main_arg0)) (m ((c : Thread nD τ).loc main_arg1)) :=
  (dats m 0 c).arrAt_eq_of_cover 2 _ (fun t _ => flushed_eq m c t) covered

/-! ## The run -/

/-- Every weakly fair execution of the kernel's program terminates with the result array at `rowScale a b` and the
    arguments unchanged. -/
theorem run : θ_run defs (onTc (τ := τ) (main (F := F))) ⟨m, fun _ => 0, ρ⟩ fun r => ∀ c : Dev nD,
      r.2.mem ((c : Thread nD τ).loc main_v0)
        = rowScale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.RowBlocks

end
-- ==== Proof.lean ====
/-
  The kernel computes `diag(A) · B`, scaling row `r` of the 16384 × 4096 matrix `B` by `A r`, in 32 blocks of 512
  rows; the reference computes `A[:, None] * B`. Both are the function

      rowScale A B (r, k) = A r * B (r, k)

  (Proof/RowScale.lean) with the same single multiplication per entry, the vector's entry on the left, so the two
  results are equal entry by entry for every input, infinite ones included: no algebraic law and no finiteness is used.

  * The kernel's side (Proof/KernelRowScale.lean): the host re-lays `A` as a column, each grid point multiplies its
    block of `B` by its block of the column broadcast along the rows, and the 32 blocks fill the result array.
  * The reference's side (Proof/RefRowScale.lean): the two broadcasts read `A` at the row, then the product.
  * The three frames are the programs' runs with the result dropped; the idealized kernel is the kernel's own text
    read over the extended reals (no rewrite was applied), so that conjunct is `True`.
-/
import proofs.«136523_j84172769067597_2_alg».proof.Defs
import proofs.«136523_j84172769067597_2_alg».proof.Proof.Gen.Kernel
import proofs.«136523_j84172769067597_2_alg».proof.Proof.Gen.Kernel.Skeleton
import proofs.«136523_j84172769067597_2_alg».proof.Proof.Gen.Kernel.Launch
import proofs.«136523_j84172769067597_2_alg».proof.Proof.Gen.Kernel.Points
import proofs.«136523_j84172769067597_2_alg».proof.Proof.Gen.Kernel.Frame
import proofs.«136523_j84172769067597_2_alg».proof.Proof.Gen.KernelIdeal
import proofs.«136523_j84172769067597_2_alg».proof.Proof.Gen.KernelIdeal.Skeleton
import proofs.«136523_j84172769067597_2_alg».proof.Proof.Gen.KernelIdeal.Launch
import proofs.«136523_j84172769067597_2_alg».proof.Proof.Gen.KernelIdeal.Points
import proofs.«136523_j84172769067597_2_alg».proof.Proof.Gen.KernelIdeal.Frame
import proofs.«136523_j84172769067597_2_alg».proof.Proof.Gen.ReferenceIdeal
import proofs.«136523_j84172769067597_2_alg».proof.Proof.Gen.Pre_finite_inputs
import proofs.«136523_j84172769067597_2_alg».proof.Proof.Gen.KernelIdeal.Value
import proofs.«136523_j84172769067597_2_alg».proof.Proof.Gen.ReferenceIdeal.Run
import proofs.«136523_j84172769067597_2_alg».proof.Proof.Gen.ReferenceIdeal.Read
import proofs.«136523_j84172769067597_2_alg».proof.Proof.RowScale
import proofs.«136523_j84172769067597_2_alg».proof.Proof.RefRowScale
import proofs.«136523_j84172769067597_2_alg».proof.Proof.KernelRowScale
import Idealize.ShloMosaic.Adequacy
import Idealize.ShloMosaic.Init

noncomputable section

namespace Cert.Proof

open Idealize.ShloMosaic Idealize.SL.Sem Cert.Kernel

/-- The kernel as printed runs and leaves `A` and `B` unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-- From memories agreeing on `A` and `B`, the kernel's result array ends at `rowScale A B`, and so does the
    reference's. -/
theorem algebraic : Cert.algebraic_KernelIdeal_ReferenceIdeal := by
  intro m ρ m' ρ' _ hagree
  refine ⟨_, Cert.KernelIdeal.RowBlocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
